-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S1000000 : Shape := ⟨1, ![1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : IVec S2x1000000 32) (main_arg2 : FVec F S1000000 .f32) (main_arg3 : FVec F S64x64 .f32) (main_arg4 : FVec F S64 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1000000 : Shape := ⟨2, ![2, 1000000]⟩
abbrev S1000000 : Shape := ⟨1, ![1000000]⟩
abbrev S64x64 : Shape := ⟨2, ![64, 64]⟩
abbrev S64 : Shape := ⟨1, ![64]⟩
abbrev S100000 : Shape := ⟨1, ![100000]⟩
abbrev S1x1000000 : Shape := ⟨2, ![1, 1000000]⟩
abbrev S1100000 : Shape := ⟨1, ![1100000]⟩
abbrev S_ : Shape := ⟨0, ![]⟩
abbrev S1100000x1 : Shape := ⟨2, ![1100000, 1]⟩
abbrev S10000x64 : Shape := ⟨2, ![10000, 64]⟩
abbrev S1100000x64 : Shape := ⟨2, ![1100000, 64]⟩
abbrev S1x64 : Shape := ⟨2, ![1, 64]⟩

abbrev nBuf : Space → Nat
  | .hbm => 121
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S1x1000000, .i32⟩
  | .hbm, ⟨9, _⟩ => ⟨S1000000, .i32⟩
  | .hbm, ⟨10, _⟩ => ⟨S1100000, .i32⟩
  | .hbm, ⟨11, _⟩ => ⟨S1x1000000, .i32⟩
  | .hbm, ⟨12, _⟩ => ⟨S1000000, .i32⟩
  | .hbm, ⟨13, _⟩ => ⟨S1100000, .i32⟩
  | .hbm, ⟨14, _⟩ => ⟨S_, .f32⟩
  | .hbm, ⟨15, _⟩ => ⟨S100000, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1100000, .i32⟩
  | .hbm, ⟨31, _⟩ => ⟨S1100000, .i1⟩
  | .hbm, ⟨32, _⟩ => ⟨S_, .i32⟩
  | .hbm, ⟨33, _⟩ => ⟨S1100000, .i32⟩
  | .hbm, ⟨34, _⟩ => ⟨S1100000, .i32⟩
  | .hbm, ⟨35, _⟩ => ⟨S1100000, .i32⟩
  | .hbm, ⟨36, _⟩ => ⟨S1100000x1, .i32⟩
  | .hbm, ⟨37, _⟩ => ⟨S1100000, .f32⟩
  | .hbm, ⟨38, _⟩ => ⟨S1100000, .f32⟩
  | .hbm, ⟨39, _⟩ => ⟨S_, .i32⟩
  | .hbm, ⟨40, _⟩ => ⟨S1100000, .i32⟩
  | .hbm, ⟨41, _⟩ => ⟨S1100000, .i1⟩
  | .hbm, ⟨42, _⟩ => ⟨S_, .i32⟩
  | .hbm, ⟨43, _⟩ => ⟨S1100000, .i32⟩
  | .hbm, ⟨44, _⟩ => ⟨S1100000, .i32⟩
  | .hbm, ⟨45, _⟩ => ⟨S1100000, .i32⟩
  | .hbm, ⟨46, _⟩ => ⟨S1100000x1, .i32⟩
  | .hbm, ⟨47, _⟩ => ⟨S1100000, .f32⟩
  | .hbm, ⟨48, _⟩ => ⟨S1100000, .f32⟩
  | .hbm, ⟨49, _⟩ => ⟨S100000x64, .f32⟩
  | .hbm, ⟨50, _⟩ => ⟨S1100000x1, .f32⟩
  | .hbm, ⟨51, _⟩ => ⟨S_, .i32⟩
  | .hbm, ⟨52, _⟩ => ⟨S1100000, .i32⟩
  | .hbm, ⟨53, _⟩ => ⟨S1100000, .i1⟩
  | .hbm, ⟨54, _⟩ => ⟨S_, .i32⟩
  | .hbm, ⟨55, _⟩ => ⟨S1100000, .i32⟩
  | .hbm, ⟨56, _⟩ => ⟨S1100000, .i32⟩
  | .hbm, ⟨57, _⟩ => ⟨S1100000, .i32⟩
  | .hbm, ⟨58, _⟩ => ⟨S1100000x1, .i32⟩
  | .hbm, ⟨59, _⟩ => ⟨S1100000x64, .f32⟩
  | .hbm, ⟨60, _⟩ => ⟨S1100000x64, .f32⟩
  | .hbm, ⟨61, _⟩ => ⟨S1100000x64, .f32⟩
  | .hbm, ⟨62, _⟩ => ⟨S_, .f32⟩
  | .hbm, ⟨63, _⟩ => ⟨S100000x64, .f32⟩
  | .hbm, ⟨64, _⟩ => ⟨S1100000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000, .f32⟩
  | .hbm, ⟨71, _⟩ => ⟨S1100000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .i1⟩
  | .hbm, ⟨76, _⟩ => ⟨S100000, .f32⟩
  | .hbm, ⟨77, _⟩ => ⟨S_, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S_, .i32⟩
  | .hbm, ⟨82, _⟩ => ⟨S1100000, .i32⟩
  | .hbm, ⟨83, _⟩ => ⟨S1100000, .i1⟩
  | .hbm, ⟨84, _⟩ => ⟨S_, .i32⟩
  | .hbm, ⟨85, _⟩ => ⟨S1100000, .i32⟩
  | .hbm, ⟨86, _⟩ => ⟨S1100000, .i32⟩
  | .hbm, ⟨87, _⟩ => ⟨S1100000, .i32⟩
  | .hbm, ⟨88, _⟩ => ⟨S1100000x1, .i32⟩
  | .hbm, ⟨89, _⟩ => ⟨S1100000, .f32⟩
  | .hbm, ⟨90, _⟩ => ⟨S1100000, .f32⟩
  | .hbm, ⟨91, _⟩ => ⟨S_, .i32⟩
  | .hbm, ⟨92, _⟩ => ⟨S1100000, .i32⟩
  | .hbm, ⟨93, _⟩ => ⟨S1100000, .i1⟩
  | .hbm, ⟨94, _⟩ => ⟨S_, .i32⟩
  | .hbm, ⟨95, _⟩ => ⟨S1100000, .i32⟩
  | .hbm, ⟨96, _⟩ => ⟨S1100000, .i32⟩
  | .hbm, ⟨97, _⟩ => ⟨S1100000, .i32⟩
  | .hbm, ⟨98, _⟩ => ⟨S1100000x1, .i32⟩
  | .hbm, ⟨99, _⟩ => ⟨S1100000, .f32⟩
  | .hbm, ⟨100, _⟩ => ⟨S1100000, .f32⟩
  | .hbm, ⟨101, _⟩ => ⟨S100000x64, .f32⟩
  | .hbm, ⟨102, _⟩ => ⟨S1100000x1, .f32⟩
  | .hbm, ⟨103, _⟩ => ⟨S_, .i32⟩
  | .hbm, ⟨104, _⟩ => ⟨S1100000, .i32⟩
  | .hbm, ⟨105, _⟩ => ⟨S1100000, .i1⟩
  | .hbm, ⟨106, _⟩ => ⟨S_, .i32⟩
  | .hbm, ⟨107, _⟩ => ⟨S1100000, .i32⟩
  | .hbm, ⟨108, _⟩ => ⟨S1100000, .i32⟩
  | .hbm, ⟨109, _⟩ => ⟨S1100000, .i32⟩
  | .hbm, ⟨110, _⟩ => ⟨S1100000x1, .i32⟩
  | .hbm, ⟨111, _⟩ => ⟨S1100000x64, .f32⟩
  | .hbm, ⟨112, _⟩ => ⟨S1100000x64, .f32⟩
  | .hbm, ⟨113, _⟩ => ⟨S1100000x64, .f32⟩
  | .hbm, ⟨114, _⟩ => ⟨S_, .f32⟩
  | .hbm, ⟨115, _⟩ => ⟨S100000x64, .f32⟩
  | .hbm, ⟨116, _⟩ => ⟨S1100000x1, .i32⟩
  | .hbm, ⟨117, _⟩ => ⟨S100000x64, .f32⟩
  | .hbm, ⟨118, _⟩ => ⟨S1x64, .f32⟩
  | .hbm, ⟨119, _⟩ => ⟨S100000x64, .f32⟩
  | .hbm, ⟨120, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_call1_v0 : Ref sig .tc := ⟨.hbm, 78, rfl⟩
abbrev main_call1_v1 : Ref sig .tc := ⟨.hbm, 79, rfl⟩
abbrev main_v55 : Ref sig .tc := ⟨.hbm, 80, rfl⟩
abbrev main_c_12 : Ref sig .tc := ⟨.hbm, 81, rfl⟩
abbrev main_v56 : Ref sig .tc := ⟨.hbm, 82, rfl⟩
abbrev main_v57 : Ref sig .tc := ⟨.hbm, 83, rfl⟩
abbrev main_c_13 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_c_15 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_c_17 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_18 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S10000x64_S64x64_S10000x64_1_0_0_1_n_n_wf : DotDims.WF S10000x64 S64x64 S10000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v72) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S1000000 : Shape := ⟨1, ![1000000]⟩
abbrev S64x64 : Shape := ⟨2, ![64, 64]⟩
abbrev S64 : Shape := ⟨1, ![64]⟩
abbrev S100000 : Shape := ⟨1, ![100000]⟩
abbrev S1x1000000 : Shape := ⟨2, ![1, 1000000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩

abbrev nBuf : Space → Nat
  | .hbm => 124
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S1x1000000, .i32⟩
  | .hbm, ⟨9, _⟩ => ⟨S1000000, .i32⟩
  | .hbm, ⟨10, _⟩ => ⟨S1100000, .i32⟩
  | .hbm, ⟨11, _⟩ => ⟨S1x1000000, .i32⟩
  | .hbm, ⟨12, _⟩ => ⟨S1000000, .i32⟩
  | .hbm, ⟨13, _⟩ => ⟨S1100000, .i32⟩
  | .hbm, ⟨14, _⟩ => ⟨S_, .f32⟩
  | .hbm, ⟨15, _⟩ => ⟨S100000, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1100000, .i32⟩
  | .hbm, ⟨31, _⟩ => ⟨S1100000, .i1⟩
  | .hbm, ⟨32, _⟩ => ⟨S_, .i32⟩
  | .hbm, ⟨33, _⟩ => ⟨S1100000, .i32⟩
  | .hbm, ⟨34, _⟩ => ⟨S1100000, .i32⟩
  | .hbm, ⟨35, _⟩ => ⟨S1100000, .i32⟩
  | .hbm, ⟨36, _⟩ => ⟨S1100000x1, .i32⟩
  | .hbm, ⟨37, _⟩ => ⟨S1100000, .f32⟩
  | .hbm, ⟨38, _⟩ => ⟨S1100000, .f32⟩
  | .hbm, ⟨39, _⟩ => ⟨S_, .i32⟩
  | .hbm, ⟨40, _⟩ => ⟨S1100000, .i32⟩
  | .hbm, ⟨41, _⟩ => ⟨S1100000, .i1⟩
  | .hbm, ⟨42, _⟩ => ⟨S_, .i32⟩
  | .hbm, ⟨43, _⟩ => ⟨S1100000, .i32⟩
  | .hbm, ⟨44, _⟩ => ⟨S1100000, .i32⟩
  | .hbm, ⟨45, _⟩ => ⟨S1100000, .i32⟩
  | .hbm, ⟨46, _⟩ => ⟨S1100000x1, .i32⟩
  | .hbm, ⟨47, _⟩ => ⟨S1100000, .f32⟩
  | .hbm, ⟨48, _⟩ => ⟨S1100000, .f32⟩
  | .hbm, ⟨49, _⟩ => ⟨S100000x64, .f32⟩
  | .hbm, ⟨50, _⟩ => ⟨S1100000x1, .f32⟩
  | .hbm, ⟨51, _⟩ => ⟨S_, .i32⟩
  | .hbm, ⟨52, _⟩ => ⟨S1100000, .i32⟩
  | .hbm, ⟨53, _⟩ => ⟨S1100000, .i1⟩
  | .hbm, ⟨54, _⟩ => ⟨S_, .i32⟩
  | .hbm, ⟨55, _⟩ => ⟨S1100000, .i32⟩
  | .hbm, ⟨56, _⟩ => ⟨S1100000, .i32⟩
  | .hbm, ⟨57, _⟩ => ⟨S1100000, .i32⟩
  | .hbm, ⟨58, _⟩ => ⟨S1100000x1, .i32⟩
  | .hbm, ⟨59, _⟩ => ⟨S1100000x64, .f32⟩
  | .hbm, ⟨60, _⟩ => ⟨S1100000x64, .f32⟩
  | .hbm, ⟨61, _⟩ => ⟨S1100000x64, .f32⟩
  | .hbm, ⟨62, _⟩ => ⟨S_, .f32⟩
  | .hbm, ⟨63, _⟩ => ⟨S100000x64, .f32⟩
  | .hbm, ⟨64, _⟩ => ⟨S1100000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000, .f32⟩
  | .hbm, ⟨74, _⟩ => ⟨S1100000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1100000, .i32⟩
  | .hbm, ⟨86, _⟩ => ⟨S1100000, .i1⟩
  | .hbm, ⟨87, _⟩ => ⟨S_, .i32⟩
  | .hbm, ⟨88, _⟩ => ⟨S1100000, .i32⟩
  | .hbm, ⟨89, _⟩ => ⟨S1100000, .i32⟩
  | .hbm, ⟨90, _⟩ => ⟨S1100000, .i32⟩
  | .hbm, ⟨91, _⟩ => ⟨S1100000x1, .i32⟩
  | .hbm, ⟨92, _⟩ => ⟨S1100000, .f32⟩
  | .hbm, ⟨93, _⟩ => ⟨S1100000, .f32⟩
  | .hbm, ⟨94, _⟩ => ⟨S_, .i32⟩
  | .hbm, ⟨95, _⟩ => ⟨S1100000, .i32⟩
  | .hbm, ⟨96, _⟩ => ⟨S1100000, .i1⟩
  | .hbm, ⟨97, _⟩ => ⟨S_, .i32⟩
  | .hbm, ⟨98, _⟩ => ⟨S1100000, .i32⟩
  | .hbm, ⟨99, _⟩ => ⟨S1100000, .i32⟩
  | .hbm, ⟨100, _⟩ => ⟨S1100000, .i32⟩
  | .hbm, ⟨101, _⟩ => ⟨S1100000x1, .i32⟩
  | .hbm, ⟨102, _⟩ => ⟨S1100000, .f32⟩
  | .hbm, ⟨103, _⟩ => ⟨S1100000, .f32⟩
  | .hbm, ⟨104, _⟩ => ⟨S100000x64, .f32⟩
  | .hbm, ⟨105, _⟩ => ⟨S1100000x1, .f32⟩
  | .hbm, ⟨106, _⟩ => ⟨S_, .i32⟩
  | .hbm, ⟨107, _⟩ => ⟨S1100000, .i32⟩
  | .hbm, ⟨108, _⟩ => ⟨S1100000, .i1⟩
  | .hbm, ⟨109, _⟩ => ⟨S_, .i32⟩
  | .hbm, ⟨110, _⟩ => ⟨S1100000, .i32⟩
  | .hbm, ⟨111, _⟩ => ⟨S1100000, .i32⟩
  | .hbm, ⟨112, _⟩ => ⟨S1100000, .i32⟩
  | .hbm, ⟨113, _⟩ => ⟨S1100000x1, .i32⟩
  | .hbm, ⟨114, _⟩ => ⟨S1100000x64, .f32⟩
  | .hbm, ⟨115, _⟩ => ⟨S1100000x64, .f32⟩
  | .hbm, ⟨116, _⟩ => ⟨S1100000x64, .f32⟩
  | .hbm, ⟨117, _⟩ => ⟨S_, .f32⟩
  | .hbm, ⟨118, _⟩ => ⟨S100000x64, .f32⟩
  | .hbm, ⟨119, _⟩ => ⟨S1100000x1, .i32⟩
  | .hbm, ⟨120, _⟩ => ⟨S100000x64, .f32⟩
  | .hbm, ⟨121, _⟩ => ⟨S1x64, .f32⟩
  | .hbm, ⟨122, _⟩ => ⟨S100000x64, .f32⟩
  | .hbm, ⟨123, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_c_17 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x64_S64x64_S100000x64_1_0_0_1_n_n_wf : DotDims.WF S100000x64 S64x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

class Facts : Prop extends Facts₀ where

variable [Facts]
-- ==== Proof.ValueRun.lean ====
/-
  The whole program's run with its result named.

  The program is nine segments: three stretches of host operations, the first projection region, three more
  stretches, the second projection region, and a last stretch. Run from any memory, every fair execution ends, and
  every unscoped buffer then holds what the fold of the segments leaves in it: a stretch rewrites the buffers its
  operations write, a region rewrites its output array. Read at the result buffer this names the program's result;
  read at an argument it gives back the argument.
-/
import proofs.«136546_j60129542734_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution of the program ends with the result buffer at the last boundary's contents and the
    seven arguments as launched. -/
theorem run_named : θ_run defs (onTc (τ := τ) (main (F := F))) ⟨m, fun _ => 0, ρ⟩ (fun r => ∀ c : Dev nD,
      r.2.mem ((c.tc : Thread nD τ).loc main_v88) = W9 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v88 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Whole

end
-- ==== Proof.HostStages.lean ====
/-
  The host operations between and around the two projection regions, stretch by stretch.

  Both programs spend most of their operations outside the dense part: building the self-looped edge lists, the
  degrees and their inverse square roots, the per-edge normalisation, the gather of projected rows, the scatter-add
  at the targets and the bias. The kernel's program and the reference apply the SAME operations there, so each
  buffer a stretch writes is the reference's stage of the same name applied to whatever the stretch finds in the
  buffers it reads. Every statement is for an arbitrary contents `U` at the stretch's entry; a stretch leaves the
  buffers it does not write as it found them.
-/
import proofs.«136546_j60129542734_1_alg».proof.Proof.Gen.KernelIdeal.Launch
import proofs.«136546_j60129542734_1_alg».proof.Proof.Gen.ReferenceIdeal.Read
import Idealize.ShloMosaic.Lib.StableHlo.Run

noncomputable section

namespace Cert.KernelIdeal.Host

open Cert.KernelIdeal Cert.KernelIdeal.Gen Cert.ReferenceIdeal.Read
open Idealize.ShloMosaic Idealize.ShloMosaic.TcCoe Idealize.SL.Sem Idealize.ShloMosaic.StableHlo

/-! ## Before the first region: the edge lists, the weights, the degrees -/

/-- The self-looped source list is a function of the edge index alone. -/
theorem sources_first (U : Valuation τ sig (Elt Ideal)) :
    StableHlo.after hostOps0 U (Proc.devRef .tc main_v3) = val_main_v3 (F := Ideal) (U (Proc.devRef .tc main_arg1)) := by
  after_results_simp <;> rfl

/-- The self-looped target list is a function of the edge index alone. -/
theorem targets_first (U : Valuation τ sig (Elt Ideal)) :
    StableHlo.after hostOps0 U (Proc.devRef .tc main_v6) = val_main_v6 (F := Ideal) (U (Proc.devRef .tc main_arg1)) := by
  after_results_simp <;> rfl

/-- The self-looped edge weights are a function of the edge weights alone. -/
theorem weights_first (U : Valuation τ sig (Elt Ideal)) :
    StableHlo.after hostOps0 U (Proc.devRef .tc main_v8) = val_main_v8 (F := Ideal) (U (Proc.devRef .tc main_arg2)) := by
  after_results_simp <;> rfl

/-- Which nodes have a positive degree. -/
theorem degreePositive_first (U : Valuation τ sig (Elt Ideal)) :
    StableHlo.after hostOps0 U (Proc.devRef .tc main_v13) = val_main_v13 (F := Ideal) (U (Proc.devRef .tc main_arg1)) (U (Proc.devRef .tc main_arg2)) := by
  after_results_simp <;> rfl

/-- The inverse square roots of the degrees. -/
theorem degreeRsqrt_first (U : Valuation τ sig (Elt Ideal)) :
    StableHlo.after hostOps0 U (Proc.devRef .tc main_v14) = val_main_v14 (F := Ideal) (U (Proc.devRef .tc main_arg1)) (U (Proc.devRef .tc main_arg2)) := by
  after_results_simp <;> rfl

/-- The zero the guarded inverse square root falls back to. -/
theorem zero_first (U : Valuation τ sig (Elt Ideal)) :
    StableHlo.after hostOps0 U (Proc.devRef .tc main_cst_2) = val_main_cst_2 (F := Ideal) := by
  after_results_simp <;> rfl

/-- The first stretch writes no argument. -/
theorem kept_first (U : Valuation τ sig (Elt Ideal)) :
    StableHlo.after hostOps0 U (Proc.devRef .tc main_arg0) = U (Proc.devRef .tc main_arg0)
    ∧ StableHlo.after hostOps0 U (Proc.devRef .tc main_arg3) = U (Proc.devRef .tc main_arg3)
    ∧ StableHlo.after hostOps0 U (Proc.devRef .tc main_arg4) = U (Proc.devRef .tc main_arg4)
    ∧ StableHlo.after hostOps0 U (Proc.devRef .tc main_arg5) = U (Proc.devRef .tc main_arg5)
    ∧ StableHlo.after hostOps0 U (Proc.devRef .tc main_arg6) = U (Proc.devRef .tc main_arg6) := by
  refine ⟨?_, ?_, ?_, ?_, ?_⟩ <;> after_results_simp

/-- The guard: the inverse square root where the degree is positive, the fallback elsewhere. -/
theorem guard_first (U : Valuation τ sig (Elt Ideal)) :
    StableHlo.after hostOps0_1 U (Proc.devRef .tc main_v15)
      = select (U (Proc.devRef .tc main_v13)) (U (Proc.devRef .tc main_v14)) (broadcastInDim S100000 ![] bcast_S_S100000 (U (Proc.devRef .tc main_cst_2))) := by
  after_results_simp
  rfl

/-- The guard writes nothing else that is read later. -/
theorem kept_guard_first (U : Valuation τ sig (Elt Ideal)) :
    StableHlo.after hostOps0_1 U (Proc.devRef .tc main_v3) = U (Proc.devRef .tc main_v3)
    ∧ StableHlo.after hostOps0_1 U (Proc.devRef .tc main_v6) = U (Proc.devRef .tc main_v6)
    ∧ StableHlo.after hostOps0_1 U (Proc.devRef .tc main_v8) = U (Proc.devRef .tc main_v8)
    ∧ StableHlo.after hostOps0_1 U (Proc.devRef .tc main_arg0) = U (Proc.devRef .tc main_arg0)
    ∧ StableHlo.after hostOps0_1 U (Proc.devRef .tc main_arg3) = U (Proc.devRef .tc main_arg3)
    ∧ StableHlo.after hostOps0_1 U (Proc.devRef .tc main_arg4) = U (Proc.devRef .tc main_arg4)
    ∧ StableHlo.after hostOps0_1 U (Proc.devRef .tc main_arg5) = U (Proc.devRef .tc main_arg5)
    ∧ StableHlo.after hostOps0_1 U (Proc.devRef .tc main_arg6) = U (Proc.devRef .tc main_arg6) := by
  refine ⟨?_, ?_, ?_, ?_, ?_, ?_, ?_, ?_⟩ <;> after_results_simp

/-- The per-edge normalisation: the guarded factor at the source, times the weight, times the factor at the target. -/
theorem norm_first (U : Valuation τ sig (Elt Ideal)) (x1 : (⟨S2x1000000, .i32⟩ : BufTy).Contents (Elt Ideal)) (x2 : (⟨S1000000, .f32⟩ : BufTy).Contents (Elt Ideal))
    (h3 : U (Proc.devRef .tc main_v3) = val_main_v3 (F := Ideal) x1)
    (h6 : U (Proc.devRef .tc main_v6) = val_main_v6 (F := Ideal) x1)
    (h8 : U (Proc.devRef .tc main_v8) = val_main_v8 (F := Ideal) x2)
    (h15 : U (Proc.devRef .tc main_v15) = val_main_v15 (F := Ideal) x1 x2) :
    StableHlo.after hostOps0_2 U (Proc.devRef .tc main_v31) = val_main_v31 (F := Ideal) x1 x2 := by
  after_results_simp
  rw [h3, h6, h8, h15]
  rfl

/-- The normalisation writes nothing else that is read later. -/
theorem kept_norm_first (U : Valuation τ sig (Elt Ideal)) :
    StableHlo.after hostOps0_2 U (Proc.devRef .tc main_v3) = U (Proc.devRef .tc main_v3)
    ∧ StableHlo.after hostOps0_2 U (Proc.devRef .tc main_v6) = U (Proc.devRef .tc main_v6)
    ∧ StableHlo.after hostOps0_2 U (Proc.devRef .tc main_v8) = U (Proc.devRef .tc main_v8)
    ∧ StableHlo.after hostOps0_2 U (Proc.devRef .tc main_arg0) = U (Proc.devRef .tc main_arg0)
    ∧ StableHlo.after hostOps0_2 U (Proc.devRef .tc main_arg3) = U (Proc.devRef .tc main_arg3)
    ∧ StableHlo.after hostOps0_2 U (Proc.devRef .tc main_arg4) = U (Proc.devRef .tc main_arg4)
    ∧ StableHlo.after hostOps0_2 U (Proc.devRef .tc main_arg5) = U (Proc.devRef .tc main_arg5)
    ∧ StableHlo.after hostOps0_2 U (Proc.devRef .tc main_arg6) = U (Proc.devRef .tc main_arg6) := by
  refine ⟨?_, ?_, ?_, ?_, ?_, ?_, ?_, ?_⟩ <;> after_results_simp

/-! ## Between the regions: the first layer's aggregation, and the degrees again -/

/-- The first layer's output: projected rows gathered at the sources, scaled edge by edge, summed at the targets, plus the bias. -/
theorem hidden (U : Valuation τ sig (Elt Ideal)) (x0 : (⟨S100000x64, .f32⟩ : BufTy).Contents (Elt Ideal)) (x1 : (⟨S2x1000000, .i32⟩ : BufTy).Contents (Elt Ideal)) (x2 : (⟨S1000000, .f32⟩ : BufTy).Contents (Elt Ideal)) (x3 : (⟨S64x64, .f32⟩ : BufTy).Contents (Elt Ideal)) (x4 : (⟨S64, .f32⟩ : BufTy).Contents (Elt Ideal))
    (h3 : U (Proc.devRef .tc main_v3) = val_main_v3 (F := Ideal) x1)
    (h6 : U (Proc.devRef .tc main_v6) = val_main_v6 (F := Ideal) x1)
    (h31 : U (Proc.devRef .tc main_v31) = val_main_v31 (F := Ideal) x1 x2)
    (h32 : U (Proc.devRef .tc main_v32) = val_main_v32 (F := Ideal) x0 x3)
    (h4 : U (Proc.devRef .tc main_arg4) = x4) :
    StableHlo.after hostOps1 U (Proc.devRef .tc main_v48) = val_main_v48 (F := Ideal) x0 x1 x2 x3 x4 := by
  after_results_simp
  rw [h3, h6, h31, h32, h4]
  rfl

/-- Which nodes have a positive degree (computed again for the second layer). -/
theorem degreePositive_second (U : Valuation τ sig (Elt Ideal)) (x1 : (⟨S2x1000000, .i32⟩ : BufTy).Contents (Elt Ideal)) (x2 : (⟨S1000000, .f32⟩ : BufTy).Contents (Elt Ideal))
    (h6 : U (Proc.devRef .tc main_v6) = val_main_v6 (F := Ideal) x1)
    (h8 : U (Proc.devRef .tc main_v8) = val_main_v8 (F := Ideal) x2) :
    StableHlo.after hostOps1 U (Proc.devRef .tc main_v53) = val_main_v54 (F := Ideal) x1 x2 := by
  after_results_simp
  rw [h6, h8]
  rfl

/-- The inverse square roots of the degrees (computed again). -/
theorem degreeRsqrt_second (U : Valuation τ sig (Elt Ideal)) (x1 : (⟨S2x1000000, .i32⟩ : BufTy).Contents (Elt Ideal)) (x2 : (⟨S1000000, .f32⟩ : BufTy).Contents (Elt Ideal))
    (h6 : U (Proc.devRef .tc main_v6) = val_main_v6 (F := Ideal) x1)
    (h8 : U (Proc.devRef .tc main_v8) = val_main_v8 (F := Ideal) x2) :
    StableHlo.after hostOps1 U (Proc.devRef .tc main_v54) = val_main_v55 (F := Ideal) x1 x2 := by
  after_results_simp
  rw [h6, h8]
  rfl

/-- The fallback zero of the second guard. -/
theorem zero_second (U : Valuation τ sig (Elt Ideal)) :
    StableHlo.after hostOps1 U (Proc.devRef .tc main_cst_11) = val_main_cst_11 (F := Ideal) := by
  after_results_simp <;> rfl

/-- The stretch writes nothing else that is read later. -/
theorem kept_hidden (U : Valuation τ sig (Elt Ideal)) :
    StableHlo.after hostOps1 U (Proc.devRef .tc main_v3) = U (Proc.devRef .tc main_v3)
    ∧ StableHlo.after hostOps1 U (Proc.devRef .tc main_v6) = U (Proc.devRef .tc main_v6)
    ∧ StableHlo.after hostOps1 U (Proc.devRef .tc main_v8) = U (Proc.devRef .tc main_v8)
    ∧ StableHlo.after hostOps1 U (Proc.devRef .tc main_arg5) = U (Proc.devRef .tc main_arg5)
    ∧ StableHlo.after hostOps1 U (Proc.devRef .tc main_arg6) = U (Proc.devRef .tc main_arg6) := by
  refine ⟨?_, ?_, ?_, ?_, ?_⟩ <;> after_results_simp

/-- The second guard. -/
theorem guard_second (U : Valuation τ sig (Elt Ideal)) :
    StableHlo.after hostOps1_1 U (Proc.devRef .tc main_v55)
      = select (U (Proc.devRef .tc main_v53)) (U (Proc.devRef .tc main_v54)) (broadcastInDim S100000 ![] bcast_S_S100000 (U (Proc.devRef .tc main_cst_11))) := by
  after_results_simp
  rfl

/-- The second guard writes nothing else that is read later. -/
theorem kept_guard_second (U : Valuation τ sig (Elt Ideal)) :
    StableHlo.after hostOps1_1 U (Proc.devRef .tc main_v3) = U (Proc.devRef .tc main_v3)
    ∧ StableHlo.after hostOps1_1 U (Proc.devRef .tc main_v6) = U (Proc.devRef .tc main_v6)
    ∧ StableHlo.after hostOps1_1 U (Proc.devRef .tc main_v8) = U (Proc.devRef .tc main_v8)
    ∧ StableHlo.after hostOps1_1 U (Proc.devRef .tc main_v48) = U (Proc.devRef .tc main_v48)
    ∧ StableHlo.after hostOps1_1 U (Proc.devRef .tc main_arg5) = U (Proc.devRef .tc main_arg5)
    ∧ StableHlo.after hostOps1_1 U (Proc.devRef .tc main_arg6) = U (Proc.devRef .tc main_arg6) := by
  refine ⟨?_, ?_, ?_, ?_, ?_, ?_⟩ <;> after_results_simp

/-- The per-edge normalisation of the second layer. -/
theorem norm_second (U : Valuation τ sig (Elt Ideal)) (x1 : (⟨S2x1000000, .i32⟩ : BufTy).Contents (Elt Ideal)) (x2 : (⟨S1000000, .f32⟩ : BufTy).Contents (Elt Ideal))
    (h3 : U (Proc.devRef .tc main_v3) = val_main_v3 (F := Ideal) x1)
    (h6 : U (Proc.devRef .tc main_v6) = val_main_v6 (F := Ideal) x1)
    (h8 : U (Proc.devRef .tc main_v8) = val_main_v8 (F := Ideal) x2)
    (h55 : U (Proc.devRef .tc main_v55) = val_main_v56 (F := Ideal) x1 x2) :
    StableHlo.after hostOps1_2 U (Proc.devRef .tc main_v71) = val_main_v72 (F := Ideal) x1 x2 := by
  after_results_simp
  rw [h3, h6, h8, h55]
  rfl

/-- The second normalisation writes nothing else that is read later. -/
theorem kept_norm_second (U : Valuation τ sig (Elt Ideal)) :
    StableHlo.after hostOps1_2 U (Proc.devRef .tc main_v3) = U (Proc.devRef .tc main_v3)
    ∧ StableHlo.after hostOps1_2 U (Proc.devRef .tc main_v6) = U (Proc.devRef .tc main_v6)
    ∧ StableHlo.after hostOps1_2 U (Proc.devRef .tc main_v48) = U (Proc.devRef .tc main_v48)
    ∧ StableHlo.after hostOps1_2 U (Proc.devRef .tc main_arg5) = U (Proc.devRef .tc main_arg5)
    ∧ StableHlo.after hostOps1_2 U (Proc.devRef .tc main_arg6) = U (Proc.devRef .tc main_arg6) := by
  refine ⟨?_, ?_, ?_, ?_, ?_⟩ <;> after_results_simp

/-! ## After the second region: the second layer's aggregation -/

/-- The result: the second projection gathered, scaled, summed at the targets, plus the second bias. -/
theorem output (U : Valuation τ sig (Elt Ideal)) (x0 : (⟨S100000x64, .f32⟩ : BufTy).Contents (Elt Ideal)) (x1 : (⟨S2x1000000, .i32⟩ : BufTy).Contents (Elt Ideal)) (x2 : (⟨S1000000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (h3 : U (Proc.devRef .tc main_v3) = val_main_v3 (F := Ideal) x1)
    (h6 : U (Proc.devRef .tc main_v6) = val_main_v6 (F := Ideal) x1)
    (h71 : U (Proc.devRef .tc main_v71) = val_main_v72 (F := Ideal) x1 x2)
    (h72 : U (Proc.devRef .tc main_v72) = val_main_v73 (F := Ideal) x0 x1 x2 x3 x4 x5)
    (h6' : U (Proc.devRef .tc main_arg6) = x6) :
    StableHlo.after hostOps2 U (Proc.devRef .tc main_v88) = val_main_v89 (F := Ideal) x0 x1 x2 x3 x4 x5 x6 := by
  after_results_simp
  rw [h3, h6, h71, h72, h6']
  rfl

end Cert.KernelIdeal.Host

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibGraphLayer.lean ====
/-
  One layer of a graph convolution over the extended reals, as whole-array functions given entry by entry.

  A layer first projects every node's feature row by a weight matrix (`matProd`: entry `(r, q)` is the sum over the
  contracted position `k` of `A[r, k] · B[k, q]`), then combines, node by node, the aggregated neighbour messages
  with the node's own projected row scaled by a per-node factor, adds a bias row and rectifies
  (`nodeCombine`: entry `(r, q)` is `max (agg[r, q] + h[r, q] · s[r] + bias[q]) z`). The per-node factor comes as a
  one-column array `[a, 1]`, the bias as a one-row array `[1, b]`. Also here: the keep-dims cast of a vector to a column.
-/
import Idealize.ShloMosaic.PureOps.Ideal
import Idealize.ShloMosaic.Lib.ValueIdx
import Idealize.ShloMosaic.Lib.ValueLayout
import Idealize.ShloMosaic.Lib.Pipeline.Value

noncomputable section

namespace Cert.GraphLayer

open Idealize.ShloMosaic Idealize.ShloMosaic.ValueIdx

/-- The product of an `[a, K]` array and a `[K, b]` array: entry `(r, q)` is `∑ k, A[r, k] · B[k, q]`. -/
def matProd {a K b : ℕ} (A : (⟨2, ![a, K]⟩ : Shape).Idx → EReal) (B : (⟨2, ![K, b]⟩ : Shape).Idx → EReal) :
    (⟨2, ![a, b]⟩ : Shape).Idx → EReal :=
  fun i => ∑ k : Fin K, A (ix2 (i 0) k) * B (ix2 k (i 1))

theorem matProd_ix2 {a K b : ℕ} (A : (⟨2, ![a, K]⟩ : Shape).Idx → EReal) (B : (⟨2, ![K, b]⟩ : Shape).Idx → EReal)
    (r : Fin a) (q : Fin b) : matProd A B (ix2 r q) = ∑ k : Fin K, A (ix2 r k) * B (ix2 k q) := rfl

/-- The combination at every node: the aggregated messages plus the node's own row scaled by the node's factor, plus
    the bias row, rectified at `z`. -/
def nodeCombine {a b : ℕ} (z : EReal) (agg h : (⟨2, ![a, b]⟩ : Shape).Idx → EReal) (s : (⟨2, ![a, 1]⟩ : Shape).Idx → EReal)
    (bias : (⟨2, ![1, b]⟩ : Shape).Idx → EReal) : (⟨2, ![a, b]⟩ : Shape).Idx → EReal :=
  fun i => max ((agg i + h i * s (ix2 (i 0) (0 : Fin 1))) + bias (ix2 (0 : Fin 1) (i 1))) z

theorem nodeCombine_ix2 {a b : ℕ} (z : EReal) (agg h : (⟨2, ![a, b]⟩ : Shape).Idx → EReal) (s : (⟨2, ![a, 1]⟩ : Shape).Idx → EReal)
    (bias : (⟨2, ![1, b]⟩ : Shape).Idx → EReal) (r : Fin a) (q : Fin b) :
    nodeCombine z agg h s bias (ix2 r q)
      = max ((agg (ix2 r q) + h (ix2 r q) * s (ix2 r (0 : Fin 1))) + bias (ix2 (0 : Fin 1) q)) z := rfl

/-- The combination at an index whose column coordinate is named: the bias entry may be read at that name. -/
theorem nodeCombine_apply_of_col {a b : ℕ} (z : EReal) (agg h : (⟨2, ![a, b]⟩ : Shape).Idx → EReal) (s : (⟨2, ![a, 1]⟩ : Shape).Idx → EReal)
    (bias : (⟨2, ![1, b]⟩ : Shape).Idx → EReal) (i : (⟨2, ![a, b]⟩ : Shape).Idx) (q : Fin b) (hq : q = i 1) :
    max ((agg i + h i * s (ix2 (i 0) (0 : Fin 1))) + bias (ix2 (0 : Fin 1) q)) z = nodeCombine z agg h s bias i := by
  subst hq; rfl

/-- An `[a]` array cast to a column `[a, 1]` reads, at `(r, u)`, the operand at `r`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Cert.GraphLayer

end
-- ==== Proof.Spec.lean ====
/-
  The two whole-array functions the graph network's dense part computes, over the extended reals.

  A layer projects every node's feature row by a weight matrix: entry `(r, q)` of the projection is
  `∑ k, X[r, k] · W[k, q]` (`Cert.GraphLayer.matProd`). Between the two layers the hidden array is rectified at zero,
  entry by entry (`rectified`). The zero is the extended real the all-zero f32 pattern denotes.
-/
import proofs.«136546_j60129542734_1_alg».proof.Proof.LibGraphLayer

noncomputable section

namespace Cert.Gcn

open Idealize.ShloMosaic

/-- The threshold of the rectifier: the extended real the all-zero f32 pattern denotes. -/
abbrev zeroWord : EReal := Ideal.ofBits .f32 0x00000000#32

/-- An array rectified at zero, entry by entry. -/
def rectified {a b : ℕ} (Y : (⟨2, ![a, b]⟩ : Shape).Idx → EReal) : (⟨2, ![a, b]⟩ : Shape).Idx → EReal :=
  fun i => max (Y i) zeroWord

theorem rectified_apply {a b : ℕ} (Y : (⟨2, ![a, b]⟩ : Shape).Idx → EReal) (i : (⟨2, ![a, b]⟩ : Shape).Idx) :
    rectified Y i = max (Y i) zeroWord := rfl

end Cert.Gcn

end
-- ==== Proof.TilePayload.lean ====
/-
  What one grid point of each projection kernel computes, entry by entry, over the extended reals.

  Both kernels take a tile of 10000 node rows `x` (`[10000, 64]`) and the whole weight matrix `w` (`[64, 64]`),
  change both to a narrower float format (which does nothing to an extended real) and multiply them into a zero
  accumulator; the second kernel first rectifies the tile at zero. So entry `(p, q)` of what a point stores is
  `∑ k, x[p, k] · w[k, q]` for the first kernel and `∑ k, max (x[p, k]) 0 · w[k, q]` for the second.
-/
import proofs.«136546_j60129542734_1_alg».proof.Proof.Gen.KernelIdeal.Skeleton
import proofs.«136546_j60129542734_1_alg».proof.Proof.LibRowLayers
import proofs.«136546_j60129542734_1_alg».proof.Proof.Spec

noncomputable section

namespace Cert.KernelIdeal.Tile

open Idealize.ShloMosaic Idealize.ShloMosaic.ValueIdx Cert.KernelIdeal Cert.KernelIdeal.Gen Cert.RowLayers Cert.Gcn

/-- The tile product's dimension numbers contract the tile's columns against the weight's rows. -/
theorem tile_rowsTimesCols :
    RowsTimesCols (a := 10000) (K := 64) (b := 64) dot_S10000x64_S64x64_S10000x64_1_0_0_1_n_n where
  rank := rfl
  size := rfl
  lhs0 := fun j q => by
    unfold DotDims.lhsIdx
    rw [dif_neg (show ¬(0 : Fin S10000x64.rank) ∈ dot_S10000x64_S64x64_S10000x64_1_0_0_1_n_n.lhsBatch by decide),
      dif_pos (show (0 : Fin S10000x64.rank) ∈ dot_S10000x64_S64x64_S10000x64_1_0_0_1_n_n.lhsNonContracting by decide)]
    rfl
  lhs1 := fun j q => dot_S10000x64_S64x64_S10000x64_1_0_0_1_n_n.lhsIdx_val_of_single rfl j q
  rhs0 := fun j q => dot_S10000x64_S64x64_S10000x64_1_0_0_1_n_n.rhsIdx_val_of_single rfl j q
  rhs1 := fun j q => by
    unfold DotDims.rhsIdx
    rw [dif_neg (show ¬(1 : Fin S64x64.rank) ∈ dot_S10000x64_S64x64_S10000x64_1_0_0_1_n_n.rhsBatch by decide),
      dif_pos (show (1 : Fin S64x64.rank) ∈ dot_S10000x64_S64x64_S10000x64_1_0_0_1_n_n.rhsNonContracting by decide)]
    rfl

/-- First kernel: entry `(p, q)` of the stored tile is the dot product of row `p` of the node tile with column
    `q` of the weight. -/
theorem project_apply (x : FVec Ideal S10000x64 .f32) (w : FVec Ideal S64x64 .f32) (p : Fin 10000) (q : Fin 64) :
    k0_pay1 (F := Ideal) x w (ix2 p q) = ∑ k : Fin 64, x (ix2 p k) * w (ix2 k q) := by
  unfold k0_pay1
  exact congrFun (rowOf_matmul_zero tile_rowsTimesCols none
    (truncf .bf16 x bitsLt_bf16_f32 : FVec Ideal S10000x64 .bf16) (truncf .bf16 w bitsLt_bf16_f32 : FVec Ideal S64x64 .bf16) p) q

/-- Second kernel: the same dot product of the row rectified at zero. -/
theorem rectifiedProject_apply (x : FVec Ideal S10000x64 .f32) (w : FVec Ideal S64x64 .f32) (p : Fin 10000) (q : Fin 64) :
    k1_pay1 (F := Ideal) x w (ix2 p q) = ∑ k : Fin 64, max (x (ix2 p k)) zeroWord * w (ix2 k q) := by
  unfold k1_pay1
  rw [shapeCast_self]
  exact congrFun (rowOf_matmul_zero tile_rowsTimesCols none
    (truncf .bf16 (maximumf x (broadcast S10000x64 (Scalar.ofBits (F := Ideal) .f32 0x00000000#32))) bitsLt_bf16_f32 : FVec Ideal S10000x64 .bf16)
    (truncf .bf16 w bitsLt_bf16_f32 : FVec Ideal S64x64 .bf16) p) q

end Cert.KernelIdeal.Tile

end
-- ==== Proof.RegionValue.lean ====
/-
  What each projection region leaves in its output array, as one whole-array function of the arrays it finds.

  A region walks ten grid points; point `t` reads rows `10000·t … 10000·t + 9999` of the node array and the whole
  weight matrix, and writes the same rows of the output. The ten row blocks tile the `[100000, 64]` output, and on
  each of them the stored tile is the matrix product of the block's rows with the weight, so the output array ends
  as the matrix product of the whole node array (rectified at zero first, in the second region) with the weight.
-/
import proofs.«136546_j60129542734_1_alg».proof.Proof.Gen.KernelIdeal.Frame
import proofs.«136546_j60129542734_1_alg».proof.Proof.TilePayload
import proofs.«136546_j60129542734_1_alg».proof.Proof.Spec
import Idealize.ShloMosaic.Lib.Pipeline.Value

noncomputable section

namespace Cert.KernelIdeal.Region

open Cert.KernelIdeal Cert.KernelIdeal.Gen Cert.KernelIdeal.Tile Cert.GraphLayer Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-! ## The first region -/

/-- Where the three windows' blocks sit at point `t`: the node block and the output block are row block `t`,
    the weight block is the whole matrix. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is row block `t` of the product of the node array with the weight. -/
theorem flushed0_eq (c : Dev nD) (t : Fin cfg0.N) :
    (dat0 V c).flushed 2 t
      = ((cfg0.win 2).blk t).view.read (Elt Ideal) (matProd (V c main_arg0) (V c main_arg3)) := by
  show (cfg0.win 2).cut (grid0.coords t) ((dat0 V c).after 2 t) = _
  rw [after0_2]
  unfold out0_2
  rw [View.canon_unit_zero origin]
  simp only [View.ld_unit_zero (S := S10000x64) origin, View.ld_unit_zero (S := S64x64) origin]
  obtain ⟨e0, e1, e2, e3, e4, e5⟩ := blocks0 t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
    = matProd (V c main_arg0) (V c main_arg3) (((cfg0.win 2).blk t).view.emb (ix2 p q))
  refine (project_apply (iblk0 V c 0 t) (iblk0 V c 1 t) p q).trans ?_
  refine Finset.sum_congr rfl fun k _ => ?_
  have hx : iblk0 V c 0 t (ix2 p k)
      = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 64 + 1 * k.val = k.val; omega
  have hw : iblk0 V c 1 t (ix2 k q)
      = V c main_arg3 (ix2 k ((((cfg0.win 2).blk t).view.emb (ix2 p q)) 1)) := by
    show V c main_arg3 (((cfg0.win 1).blk t).view.emb (ix2 k q)) = _
    refine congrArg (V c main_arg3) (funext fun a => Fin.ext ?_)
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  rw [hx, hw]

/-- An index of the output is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v32).slice (win0_2.rect t)).set ↔ _
  rw [View.set_slice_whole, Rect.mem_set_unit]
  exact Iff.rfl

/-- Row `r` of the output lies in the block of point `r / 10000`: the ten row blocks tile the array. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  refine ⟨t, flush0_2 t, ?_⟩
  obtain ⟨e0, e1, e2, e3, e4, e5⟩ := blocks0 t
  have ht : t.val = (i 0).val / 10000 := rfl
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The first region's output array after its ten points: the node array times the weight. -/
theorem projected0 (c : Dev nD) :
    (dat0 V c).arrAt 2 cfg0.N = matProd (V c main_arg0) (V c main_arg3) :=
  (dat0 V c).arrAt_eq_of_cover 2 (matProd (V c main_arg0) (V c main_arg3)) (fun t _ => flushed0_eq V c t) cover0

/-! ## The second region -/

theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is row block `t` of the product of the rectified hidden array with the weight. -/
theorem flushed1_eq (c : Dev nD) (t : Fin cfg1.N) :
    (dat1 V c).flushed 2 t
      = ((cfg1.win 2).blk t).view.read (Elt Ideal) (matProd (rectified (V c main_v48)) (V c main_arg5)) := by
  show (cfg1.win 2).cut (grid1.coords t) ((dat1 V c).after 2 t) = _
  rw [after1_2]
  unfold out1_2
  rw [View.canon_unit_zero origin]
  simp only [View.ld_unit_zero (S := S10000x64) origin, View.ld_unit_zero (S := S64x64) origin]
  obtain ⟨e0, e1, e2, e3, e4, e5⟩ := blocks1 t
  funext j
  obtain ⟨p, q, rfl⟩ : ∃ (p : Fin 10000) (q : Fin 64), j = ix2 p q := ⟨j 0, j 1, eq_ix2 j⟩
  show k1_pay1 (iblk1 V c 0 t) (iblk1 V c 1 t) (ix2 p q)
    = matProd (rectified (V c main_v48)) (V c main_arg5) (((cfg1.win 2).blk t).view.emb (ix2 p q))
  refine (rectifiedProject_apply (iblk1 V c 0 t) (iblk1 V c 1 t) p q).trans ?_
  refine Finset.sum_congr rfl fun k _ => ?_
  have hx : iblk1 V c 0 t (ix2 p k)
      = V c main_v48 (ix2 ((((cfg1.win 2).blk t).view.emb (ix2 p q)) 0) k) := by
    show V c main_v48 (((cfg1.win 0).blk t).view.emb (ix2 p k)) = _
    refine congrArg (V c main_v48) (funext fun a => Fin.ext ?_)
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * k.val = k.val; omega
  have hw : iblk1 V c 1 t (ix2 k q)
      = V c main_arg5 (ix2 k ((((cfg1.win 2).blk t).view.emb (ix2 p q)) 1)) := by
    show V c main_arg5 (((cfg1.win 1).blk t).view.emb (ix2 k q)) = _
    refine congrArg (V c main_arg5) (funext fun a => Fin.ext ?_)
    match a with
    | ⟨0, _⟩ => show win1_1.index t (0 : Fin 2) * 64 + 1 * k.val = k.val; omega
    | ⟨1, _⟩ => show win1_1.index t (1 : Fin 2) * 64 + 1 * q.val = win1_2.index t (1 : Fin 2) * 64 + 1 * q.val; omega
  rw [hx, hw]
  rfl

theorem mem_blk1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v72).slice (win1_2.rect t)).set ↔ _
  rw [View.set_slice_whole, Rect.mem_set_unit]
  exact Iff.rfl

theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  refine ⟨t, flush1_2 t, ?_⟩
  obtain ⟨e0, e1, e2, e3, e4, e5⟩ := blocks1 t
  have ht : t.val = (i 0).val / 10000 := rfl
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The second region's output array after its ten points: the hidden array rectified at zero, times the weight. -/
theorem projected1 (c : Dev nD) :
    (dat1 V c).arrAt 2 cfg1.N = matProd (rectified (V c main_v48)) (V c main_arg5) :=
  (dat1 V c).arrAt_eq_of_cover 2 (matProd (rectified (V c main_v48)) (V c main_arg5)) (fun t _ => flushed1_eq V c t) cover1

end Cert.KernelIdeal.Region

end
-- ==== Proof.RefProducts.lean ====
/-
  The reference's two matrix products, as the same whole-array functions the kernel's regions compute.

  The reference multiplies the whole `[100000, 64]` node array by the `[64, 64]` weight in one product whose
  dimension numbers contract the node array's columns against the weight's rows: entry `(r, q)` is
  `∑ k, X[r, k] · W[k, q]`. Its rectifier between the layers is the maximum with a zero broadcast over the array.
-/
import proofs.«136546_j60129542734_1_alg».proof.Proof.Gen.ReferenceIdeal.Read
import proofs.«136546_j60129542734_1_alg».proof.Proof.LibRowLayers
import proofs.«136546_j60129542734_1_alg».proof.Proof.Spec

noncomputable section

namespace Cert.ReferenceIdeal.Products

open Idealize.ShloMosaic Idealize.ShloMosaic.ValueIdx Cert.ReferenceIdeal Cert.ReferenceIdeal.Read
open Cert.RowLayers Cert.GraphLayer Cert.Gcn

/-- The whole product's dimension numbers contract the node array's columns against the weight's rows. -/
theorem whole_rowsTimesCols :
    RowsTimesCols (a := 100000) (K := 64) (b := 64) dot_S100000x64_S64x64_S100000x64_1_0_0_1_n_n where
  rank := rfl
  size := rfl
  lhs0 := lhs_main_v32_0
  lhs1 := lhs_main_v32_1
  rhs0 := rhs_main_v32_0
  rhs1 := rhs_main_v32_1

/-- The host's product of a node array with a weight is `matProd` of them. -/
theorem dotGeneral_eq (X : FVec Ideal S100000x64 .f32) (W : FVec Ideal S64x64 .f32) :
    Host.dotGeneral (F := Ideal) dot_S100000x64_S64x64_S100000x64_1_0_0_1_n_n none X W = matProd X W := by
  funext i
  obtain ⟨r, q, rfl⟩ : ∃ (r : Fin 100000) (q : Fin 64), i = ix2 r q := ⟨i 0, i 1, eq_ix2 i⟩
  exact congrFun (rowOf_dotGeneral whole_rowsTimesCols none X W r) q

/-- The first layer's projection. -/
theorem projection1 (x0 : FVec Ideal S100000x64 .f32) (x3 : FVec Ideal S64x64 .f32) :
    val_main_v32 (F := Ideal) x0 x3 = matProd x0 x3 := by
  unfold val_main_v32
  exact dotGeneral_eq x0 x3

/-- The reference's rectifier is `rectified`. -/
theorem rectifier (Y : FVec Ideal S100000x64 .f32) :
    maximumf Y (val_main_call1_v0 (F := Ideal)) = rectified Y := rfl

/-- The second layer's projection: the first layer's output rectified at zero, times the second weight. -/
theorem projection2 (x0 : FVec Ideal S100000x64 .f32) (x1 : (⟨S2x1000000, .i32⟩ : BufTy).Contents (Elt Ideal))
    (x2 : FVec Ideal S1000000 .f32) (x3 : FVec Ideal S64x64 .f32) (x4 : FVec Ideal S64 .f32) (x5 : FVec Ideal S64x64 .f32) :
    val_main_v73 (F := Ideal) x0 x1 x2 x3 x4 x5
      = matProd (rectified (val_main_v48 (F := Ideal) x0 x1 x2 x3 x4)) x5 := by
  unfold val_main_v73 val_main_v49
  generalize val_main_v48 (F := Ideal) x0 x1 x2 x3 x4 = Y
  exact (dotGeneral_eq (maximumf Y (val_main_call1_v0 (F := Ideal))) x5).trans
    (congrArg (fun Z => matProd Z x5) (rectifier Y))

end Cert.ReferenceIdeal.Products

end
-- ==== Proof.HostChain.lean ====
/-
  The kernel program's result, followed through its nine segments, is the reference's last stage of the arguments.

  Start from the launch memory. The first three stretches build the edge lists, the weights and the normalisation
  (functions of the edge index and the edge weights alone). The first region leaves the node array times the first
  weight. The next three stretches gather, scale, sum and add the bias (the first layer's output) and rebuild the
  normalisation. The second region leaves that output, rectified, times the second weight. The last stretch
  aggregates again and adds the second bias. At every boundary each buffer that is read later holds the reference's
  stage of the same value; a segment leaves untouched what it does not write.
-/
import proofs.«136546_j60129542734_1_alg».proof.Proof.Gen.KernelIdeal.Frame
import proofs.«136546_j60129542734_1_alg».proof.Proof.HostStages
import proofs.«136546_j60129542734_1_alg».proof.Proof.RegionValue
import proofs.«136546_j60129542734_1_alg».proof.Proof.RefProducts

noncomputable section

namespace Cert.KernelIdeal.Chain

open Cert.KernelIdeal Cert.KernelIdeal.Gen Cert.KernelIdeal.Host Cert.ReferenceIdeal.Read
open Cert.GraphLayer Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- At the first region's entry: the edge lists, the weights and the normalisation are the reference's stages, and
    the arguments are as launched. -/
theorem at_first_region :
    W3 m ρ c (Proc.devRef .tc main_v3) = val_main_v3 (F := Ideal) (m ((c : Thread nD τ).loc main_arg1))
    ∧ W3 m ρ c (Proc.devRef .tc main_v6) = val_main_v6 (F := Ideal) (m ((c : Thread nD τ).loc main_arg1))
    ∧ W3 m ρ c (Proc.devRef .tc main_v8) = val_main_v8 (F := Ideal) (m ((c : Thread nD τ).loc main_arg2))
    ∧ W3 m ρ c (Proc.devRef .tc main_v31) = val_main_v31 (F := Ideal) (m ((c : Thread nD τ).loc main_arg1)) (m ((c : Thread nD τ).loc main_arg2))
    ∧ W3 m ρ c (Proc.devRef .tc main_arg0) = (m ((c : Thread nD τ).loc main_arg0))
    ∧ W3 m ρ c (Proc.devRef .tc main_arg3) = (m ((c : Thread nD τ).loc main_arg3))
    ∧ W3 m ρ c (Proc.devRef .tc main_arg4) = (m ((c : Thread nD τ).loc main_arg4))
    ∧ W3 m ρ c (Proc.devRef .tc main_arg5) = (m ((c : Thread nD τ).loc main_arg5))
    ∧ W3 m ρ c (Proc.devRef .tc main_arg6) = (m ((c : Thread nD τ).loc main_arg6)) := by
  have p3 : W1 m ρ c (Proc.devRef .tc main_v3) = val_main_v3 (F := Ideal) (m ((c : Thread nD τ).loc main_arg1)) := sources_first (W0 m ρ c)
  have p6 : W1 m ρ c (Proc.devRef .tc main_v6) = val_main_v6 (F := Ideal) (m ((c : Thread nD τ).loc main_arg1)) := targets_first (W0 m ρ c)
  have p8 : W1 m ρ c (Proc.devRef .tc main_v8) = val_main_v8 (F := Ideal) (m ((c : Thread nD τ).loc main_arg2)) := weights_first (W0 m ρ c)
  have p13 : W1 m ρ c (Proc.devRef .tc main_v13) = val_main_v13 (F := Ideal) (m ((c : Thread nD τ).loc main_arg1)) (m ((c : Thread nD τ).loc main_arg2)) := degreePositive_first (W0 m ρ c)
  have p14 : W1 m ρ c (Proc.devRef .tc main_v14) = val_main_v14 (F := Ideal) (m ((c : Thread nD τ).loc main_arg1)) (m ((c : Thread nD τ).loc main_arg2)) := degreeRsqrt_first (W0 m ρ c)
  have pz : W1 m ρ c (Proc.devRef .tc main_cst_2) = val_main_cst_2 (F := Ideal) := zero_first (W0 m ρ c)
  obtain ⟨k0, k3, k4, k5, k6⟩ := kept_first (W0 m ρ c)
  have q15 : W2 m ρ c (Proc.devRef .tc main_v15) = val_main_v15 (F := Ideal) (m ((c : Thread nD τ).loc main_arg1)) (m ((c : Thread nD τ).loc main_arg2)) :=
    (guard_first (W1 m ρ c)).trans (by rw [p13, p14, pz]; rfl)
  obtain ⟨g3, g6, g8, ga0, ga3, ga4, ga5, ga6⟩ := kept_guard_first (W1 m ρ c)
  have n31 : W3 m ρ c (Proc.devRef .tc main_v31) = val_main_v31 (F := Ideal) (m ((c : Thread nD τ).loc main_arg1)) (m ((c : Thread nD τ).loc main_arg2)) :=
    norm_first (W2 m ρ c) _ _ (g3.trans p3) (g6.trans p6) (g8.trans p8) q15
  obtain ⟨n3, n6, n8, na0, na3, na4, na5, na6⟩ := kept_norm_first (W2 m ρ c)
  exact ⟨n3.trans (g3.trans p3), n6.trans (g6.trans p6), n8.trans (g8.trans p8), n31,
    na0.trans (ga0.trans k0), na3.trans (ga3.trans k3), na4.trans (ga4.trans k4), na5.trans (ga5.trans k5),
    na6.trans (ga6.trans k6)⟩

/-- At the second region's entry: the first layer's output and the second normalisation are the reference's stages. -/
theorem at_second_region :
    W7 m ρ c (Proc.devRef .tc main_v3) = val_main_v3 (F := Ideal) (m ((c : Thread nD τ).loc main_arg1))
    ∧ W7 m ρ c (Proc.devRef .tc main_v6) = val_main_v6 (F := Ideal) (m ((c : Thread nD τ).loc main_arg1))
    ∧ W7 m ρ c (Proc.devRef .tc main_v48) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ W7 m ρ c (Proc.devRef .tc main_v71) = val_main_v72 (F := Ideal) (m ((c : Thread nD τ).loc main_arg1)) (m ((c : Thread nD τ).loc main_arg2))
    ∧ W7 m ρ c (Proc.devRef .tc main_arg5) = (m ((c : Thread nD τ).loc main_arg5))
    ∧ W7 m ρ c (Proc.devRef .tc main_arg6) = (m ((c : Thread nD τ).loc main_arg6)) := by
  obtain ⟨e3, e6, e8, e31, e0, ea3, ea4, ea5, ea6⟩ := at_first_region m ρ c
  -- the first region: its output is the projection, every other buffer is as entered
  have r32 : W4 m ρ c (Proc.devRef .tc main_v32) = val_main_v32 (F := Ideal) (m ((c : Thread nD τ).loc main_arg0)) (m ((c : Thread nD τ).loc main_arg3)) :=
    (W4_arr m ρ c 2).trans ((Region.projected0 (V3 m ρ) c).trans
      ((congrArg₂ matProd e0 ea3).trans (Cert.ReferenceIdeal.Products.projection1 _ _).symm))
  have r3 : W4 m ρ c (Proc.devRef .tc main_v3) = val_main_v3 (F := Ideal) (m ((c : Thread nD τ).loc main_arg1)) := (W4_of_ne m ρ c main_v3 (by decide)).trans e3
  have r6 : W4 m ρ c (Proc.devRef .tc main_v6) = val_main_v6 (F := Ideal) (m ((c : Thread nD τ).loc main_arg1)) := (W4_of_ne m ρ c main_v6 (by decide)).trans e6
  have r8 : W4 m ρ c (Proc.devRef .tc main_v8) = val_main_v8 (F := Ideal) (m ((c : Thread nD τ).loc main_arg2)) := (W4_of_ne m ρ c main_v8 (by decide)).trans e8
  have r31 : W4 m ρ c (Proc.devRef .tc main_v31) = val_main_v31 (F := Ideal) (m ((c : Thread nD τ).loc main_arg1)) (m ((c : Thread nD τ).loc main_arg2)) := (W4_of_ne m ρ c main_v31 (by decide)).trans e31
  have ra4 : W4 m ρ c (Proc.devRef .tc main_arg4) = (m ((c : Thread nD τ).loc main_arg4)) := (W4_of_ne m ρ c main_arg4 (by decide)).trans ea4
  have ra5 : W4 m ρ c (Proc.devRef .tc main_arg5) = (m ((c : Thread nD τ).loc main_arg5)) := (W4_of_ne m ρ c main_arg5 (by decide)).trans ea5
  have ra6 : W4 m ρ c (Proc.devRef .tc main_arg6) = (m ((c : Thread nD τ).loc main_arg6)) := (W4_of_ne m ρ c main_arg6 (by decide)).trans ea6
  -- the stretch after it
  have h48 : W5 m ρ c (Proc.devRef .tc main_v48) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
    hidden (W4 m ρ c) _ _ _ _ _ r3 r6 r31 r32 ra4
  have h53 : W5 m ρ c (Proc.devRef .tc main_v53) = val_main_v54 (F := Ideal) (m ((c : Thread nD τ).loc main_arg1)) (m ((c : Thread nD τ).loc main_arg2)) := degreePositive_second (W4 m ρ c) _ _ r6 r8
  have h54 : W5 m ρ c (Proc.devRef .tc main_v54) = val_main_v55 (F := Ideal) (m ((c : Thread nD τ).loc main_arg1)) (m ((c : Thread nD τ).loc main_arg2)) := degreeRsqrt_second (W4 m ρ c) _ _ r6 r8
  have hz : W5 m ρ c (Proc.devRef .tc main_cst_11) = val_main_cst_11 (F := Ideal) := zero_second (W4 m ρ c)
  obtain ⟨h3, h6, h8, ha5, ha6⟩ := kept_hidden (W4 m ρ c)
  have q55 : W6 m ρ c (Proc.devRef .tc main_v55) = val_main_v56 (F := Ideal) (m ((c : Thread nD τ).loc main_arg1)) (m ((c : Thread nD τ).loc main_arg2)) :=
    (guard_second (W5 m ρ c)).trans (by rw [h53, h54, hz]; rfl)
  obtain ⟨g3, g6, g8, g48, ga5, ga6⟩ := kept_guard_second (W5 m ρ c)
  have n71 : W7 m ρ c (Proc.devRef .tc main_v71) = val_main_v72 (F := Ideal) (m ((c : Thread nD τ).loc main_arg1)) (m ((c : Thread nD τ).loc main_arg2)) :=
    norm_second (W6 m ρ c) _ _ (g3.trans (h3.trans r3)) (g6.trans (h6.trans r6)) (g8.trans (h8.trans r8)) q55
  obtain ⟨n3, n6, n48, na5, na6⟩ := kept_norm_second (W6 m ρ c)
  exact ⟨n3.trans (g3.trans (h3.trans r3)), n6.trans (g6.trans (h6.trans r6)), n48.trans (g48.trans h48), n71,
    na5.trans (ga5.trans (ha5.trans ra5)), na6.trans (ga6.trans (ha6.trans ra6))⟩

/-- The program's result buffer after the last stretch is the reference's last stage of the launch arguments. -/
theorem result_eq :
    W9 m ρ c (Proc.devRef .tc main_v88)
      = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain ⟨e3, e6, e48, e71, ea5, ea6⟩ := at_second_region m ρ c
  -- the second region: its output is the projection of the rectified first layer, every other buffer is as entered
  have r72 : W8 m ρ c (Proc.devRef .tc main_v72) = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
    (W8_arr m ρ c 2).trans ((Region.projected1 (V7 m ρ) c).trans
      ((congrArg₂ (fun Y W => matProd (rectified Y) W) e48 ea5).trans
        (Cert.ReferenceIdeal.Products.projection2 _ _ _ _ _ _).symm))
  have r3 : W8 m ρ c (Proc.devRef .tc main_v3) = val_main_v3 (F := Ideal) (m ((c : Thread nD τ).loc main_arg1)) := (W8_of_ne m ρ c main_v3 (by decide)).trans e3
  have r6 : W8 m ρ c (Proc.devRef .tc main_v6) = val_main_v6 (F := Ideal) (m ((c : Thread nD τ).loc main_arg1)) := (W8_of_ne m ρ c main_v6 (by decide)).trans e6
  have r71 : W8 m ρ c (Proc.devRef .tc main_v71) = val_main_v72 (F := Ideal) (m ((c : Thread nD τ).loc main_arg1)) (m ((c : Thread nD τ).loc main_arg2)) := (W8_of_ne m ρ c main_v71 (by decide)).trans e71
  have ra6 : W8 m ρ c (Proc.devRef .tc main_arg6) = (m ((c : Thread nD τ).loc main_arg6)) := (W8_of_ne m ρ c main_arg6 (by decide)).trans ea6
  exact output (W8 m ρ c) _ _ _ _ _ _ _ r3 r6 r71 r72 ra6

end Cert.KernelIdeal.Chain

end
-- ==== Proof.lean ====
/-
  A two-layer graph convolution over 100000 nodes and 1100000 self-looped edges, its two dense projections computed
  by tiled kernels, against the plain reference: equal results over the extended reals.

  Both programs compute, per layer, `out = segment_sum(norm · (x·W)[row], col) + b` with
  `norm = dis[row] · ew · dis[col]`, `dis = where(deg > 0, rsqrt(deg), 0)`, `deg = segment_sum(ew, col)`, and rectify
  the first layer's output at zero before the second projection. They differ only in how `x·W` is computed: the
  reference in one matrix product of the whole node array; the kernel program in ten tiles of 10000 rows, each tile
  the product of its rows with the weight (after a change of float format, which is the identity on extended reals),
  the second kernel rectifying its tile first. Entry `(r, q)` is `∑ k, x[r, k] · W[k, q]` on both sides — the same
  finite sum of the same extended reals, so no finiteness of the inputs is used — and every other operation is the
  same operation applied to equal operands.

  The modules: `TilePayload` (what one tile stores, entry by entry), `RegionValue` (the ten tiles cover the output:
  each region's array is the whole product), `RefProducts` (the reference's products are the same functions),
  `HostStages` and `HostChain` (the shared host operations, stretch by stretch, and the result followed through the
  program's nine segments), `ValueRun` (the program's run with its result named).
-/
import proofs.«136546_j60129542734_1_alg».proof.Defs
import proofs.«136546_j60129542734_1_alg».proof.Proof.Gen.Kernel
import proofs.«136546_j60129542734_1_alg».proof.Proof.Gen.Kernel.Skeleton
import proofs.«136546_j60129542734_1_alg».proof.Proof.Gen.Kernel.Launch
import proofs.«136546_j60129542734_1_alg».proof.Proof.Gen.Kernel.Points
import proofs.«136546_j60129542734_1_alg».proof.Proof.Gen.Kernel.Frame
import proofs.«136546_j60129542734_1_alg».proof.Proof.Gen.KernelIdeal
import proofs.«136546_j60129542734_1_alg».proof.Proof.Gen.KernelIdeal.Skeleton
import proofs.«136546_j60129542734_1_alg».proof.Proof.Gen.KernelIdeal.Launch
import proofs.«136546_j60129542734_1_alg».proof.Proof.Gen.KernelIdeal.Points
import proofs.«136546_j60129542734_1_alg».proof.Proof.Gen.KernelIdeal.Frame
import proofs.«136546_j60129542734_1_alg».proof.Proof.Gen.ReferenceIdeal
import proofs.«136546_j60129542734_1_alg».proof.Proof.Gen.Pre_finite_inputs
import proofs.«136546_j60129542734_1_alg».proof.Proof.Gen.ReferenceIdeal.Run
import proofs.«136546_j60129542734_1_alg».proof.Proof.Gen.ReferenceIdeal.Read
import proofs.«136546_j60129542734_1_alg».proof.Proof.ValueRun
import proofs.«136546_j60129542734_1_alg».proof.Proof.HostChain
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's last stage of those arguments. -/
theorem algebraic : Cert.algebraic_KernelIdeal_ReferenceIdeal := by
  intro m ρ m' ρ' _ hagree
  refine ⟨fun c => Cert.ReferenceIdeal.Read.val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Chain.result_eq m ρ c), (h c).2⟩)
      (Cert.KernelIdeal.Whole.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v89_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
